-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S16x2048x2048 : Shape := ⟨3, ![16, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x128, .f32⟩
  | .hbm, ⟨4, _⟩ => ⟨S16x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | .local _ .vmem, ⟨8, _⟩ => ⟨S1x512x2048, .f32⟩
  | .local _ .vmem, ⟨9, _⟩ => ⟨S1x512x2048, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  transposes_S2048x128_p1_0_S128x2048 : S2048x128.Transposes [1, 0] S128x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  broadcasts_S512x1_S512x128 : S512x1.Broadcasts S512x128
  shapeCasts_S512x128_S1x512x128 : S512x128.ShapeCasts S1x512x128
  dot_S512x128_S128x2048_S512x2048_1_0_0_1_n_n_wf : DotDims.WF S512x128 S128x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S16x2048x128.size a
  hwx0_3 : ∀ i : grid0.Coords, EltTy.bits .f32 = 32 ∨ (Rect.block (s := S16x2048x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.LibSoftmaxReal.lean ====
/-
  General laws on the extended reals used to compare a softmax-weighted sum normalised AFTER the sum with one
  normalised BEFORE it.

  * a finite sum of real numbers, read in the extended reals, is the real sum (`coe_finsum`);
  * the maximum of finitely many real numbers over a nonempty index set, folded from `⊥`, is a real number
    (`fold_max_coe`);
  * dividing a sum of products of reals by a nonzero real `L` is the sum of the products with each first factor
    divided by `L` (`div_sum_mul`): in the reals this is `(∑ pⱼ vⱼ) / L = ∑ (pⱼ / L) vⱼ`, and the extended reals'
    division by a nonzero real is the product with its reciprocal;
  * hence for real scores `S` and real values `V` over a nonempty finite index set, with `M = maxⱼ Sⱼ`,
    `pⱼ = exp (Sⱼ − M)` and `l = ∑ⱼ pⱼ`: `(∑ⱼ pⱼ Vⱼ) / l = ∑ⱼ (pⱼ / l) Vⱼ` (`softmax_div_comm`). Every `pⱼ` is a
    positive real, so `l` is a positive real and the division law applies.
-/
import Idealize.ShloMosaic.PureOps.Ideal

noncomputable section

open scoped BigOperators

namespace Cert.RealLaws

open Idealize.ShloMosaic

/-- A finite sum of reals read in the extended reals is the real sum. -/
theorem coe_finsum {ι : Type*} (s : Finset ι) (f : ι → ℝ) :
    ∑ j ∈ s, ((f j : ℝ) : EReal) = ((∑ j ∈ s, f j : ℝ) : EReal) := by
  classical
  refine Finset.induction_on s ?_ ?_
  · simp
  · intro a s ha ih
    rw [Finset.sum_insert ha, Finset.sum_insert ha, ih, EReal.coe_add]

/-- The maximum of finitely many reals over a nonempty set, folded from `⊥`, is a real. -/
theorem fold_max_coe {ι : Type*} (s : Finset ι) (hs : s.Nonempty) (f : ι → ℝ) :
    ∃ M : ℝ, s.fold max (⊥ : EReal) (fun j => ((f j : ℝ) : EReal)) = (M : EReal) := by
  have h1 : s.fold max (⊥ : EReal) (fun j => ((f j : ℝ) : EReal)) ≠ ⊤ := by
    refine ne_of_lt ?_
    rw [Finset.fold_max_lt]
    exact ⟨bot_lt_top, fun x _ => EReal.coe_lt_top _⟩
  have h2 : s.fold max (⊥ : EReal) (fun j => ((f j : ℝ) : EReal)) ≠ ⊥ := by
    refine ne_of_gt ?_
    rw [Finset.lt_fold_max]
    obtain ⟨x, hx⟩ := hs
    exact Or.inr ⟨x, hx, EReal.bot_lt_coe _⟩
  exact ⟨_, (EReal.coe_toReal h1 h2).symm⟩

/-- Division of a sum of products of reals by a nonzero real moves onto each product's first factor. -/
theorem div_sum_mul {ι : Type*} (s : Finset ι) (P V : ι → ℝ) (L : ℝ) (hL : L ≠ 0) :
    Ideal.div (∑ j ∈ s, ((P j : ℝ) : EReal) * ((V j : ℝ) : EReal)) (L : EReal)
      = ∑ j ∈ s, Ideal.div ((P j : ℝ) : EReal) (L : EReal) * ((V j : ℝ) : EReal) := by
  simp only [Ideal.div_coe hL, ← EReal.coe_mul, coe_finsum]
  congr 1
  rw [Finset.sum_mul]
  exact Finset.sum_congr rfl fun j _ => by ring

/-- For real scores and values over a nonempty finite set: the weighted sum with weights `exp (Sⱼ − max S)`, divided by
    the weights' sum, is the sum with each weight divided first. -/
theorem softmax_div_comm {ι : Type*} [Fintype ι] [Nonempty ι] (S V : ι → ℝ) (m : EReal)
    (hm : m = (Finset.univ : Finset ι).fold max (⊥ : EReal) (fun j => ((S j : ℝ) : EReal))) :
    Ideal.div (∑ j, Ideal.exp (((S j : ℝ) : EReal) - m) * ((V j : ℝ) : EReal)) (∑ j, Ideal.exp (((S j : ℝ) : EReal) - m))
      = ∑ j, Ideal.div (Ideal.exp (((S j : ℝ) : EReal) - m)) (∑ j, Ideal.exp (((S j : ℝ) : EReal) - m)) * ((V j : ℝ) : EReal) := by
  obtain ⟨M, hM⟩ := fold_max_coe (Finset.univ : Finset ι) Finset.univ_nonempty S
  rw [hm, hM]
  have hp : ∀ j, Ideal.exp (((S j : ℝ) : EReal) - (M : EReal)) = ((Real.exp (S j - M) : ℝ) : EReal) := fun j => by
    rw [← EReal.coe_sub, Ideal.exp_coe]
  simp only [hp, coe_finsum]
  refine div_sum_mul Finset.univ _ V _ (ne_of_gt ?_)
  exact Finset.sum_pos (fun j _ => Real.exp_pos _) Finset.univ_nonempty

end Cert.RealLaws

end
-- ==== Proof.Consts.lean ====
/-
  The float constants the two programs spell, as the extended reals their bit patterns denote: the `-∞` pattern the
  row maximum starts from is `⊥`, the `+∞` pattern the finiteness precondition compares against is `⊤`, and the
  scale `0x3DB504F3` (the float nearest `1/√128`, the same word in both programs) is a real number — which real never
  matters, only that it is neither infinity.
-/
import Idealize.ShloMosaic.PureOps.Ideal

noncomputable section

namespace Cert.Consts

open Idealize.ShloMosaic

/-- The pattern of `-∞` denotes `⊥`. -/
theorem ofBits_ninf : Ideal.ofBits .f32 0xFF800000#32 = ⊥ := by
  simp [Ideal.ofBits, Ideal.ieee]

/-- The pattern of `+∞` denotes `⊤`. -/
theorem ofBits_pinf : Ideal.ofBits .f32 0x7F800000#32 = ⊤ := by
  simp [Ideal.ofBits, Ideal.ieee]

/-- The scale's pattern denotes a real number. -/
theorem ofBits_scale_real : ∃ C : ℝ, Ideal.ofBits .f32 0x3DB504F3#32 = (C : EReal) := by
  have h1 : Ideal.ofBits .f32 0x3DB504F3#32 ≠ ⊤ := by
    simp [Ideal.ofBits, Ideal.ieee, -EReal.coe_mul]
  have h2 : Ideal.ofBits .f32 0x3DB504F3#32 ≠ ⊥ := by
    simp [Ideal.ofBits, Ideal.ieee, -EReal.coe_mul]
  exact ⟨_, (EReal.coe_toReal h1 h2).symm⟩

end Cert.Consts

end
-- ==== Proof.Attention.lean ====
/-
  Scaled dot-product attention over `q, k, v : [16, 2048, 128]`, as functions of the argument arrays, index by index,
  on the extended reals.

  For a batch `b` and a query row `i`:
    score b i j  = (∑_d q[b,i,d] · k[b,j,d]) · c          (c the scale constant)
    rowmax b i   = max_j score b i j                        (folded from `-∞`)
    weight b i j = exp (score b i j − rowmax b i)
    rowsum b i   = ∑_j weight b i j
    attn[b,i,j]  = weight b i j / rowsum b i
  and the context in two arrangements:
    ctxAfter[b,i,d]  = (∑_j weight b i j · v[b,j,d]) / rowsum b i      (normalise after the sum)
    ctxBefore[b,i,d] = ∑_j attn[b,i,j] · v[b,j,d]                       (normalise before the sum).
  The two agree when every entry of `q`, `k`, `v` is a real number (`ctx_eq`): then every score is real, the row
  maximum is real, every weight is a positive real and the row sum a positive real, and division by a nonzero real
  distributes over the sum. (With an infinite entry the two can differ: the extended reals' product does not distribute
  over sums of opposite infinities.)
-/
import Idealize.ShloMosaic.Lib.ValueIdx
import proofs.«106450_j5557687681458_2_alg».proof.Proof.LibSoftmaxReal
import proofs.«106450_j5557687681458_2_alg».proof.Proof.Consts

noncomputable section

open scoped BigOperators

namespace Cert.Attn

open Idealize.ShloMosaic Idealize.ShloMosaic.ValueIdx

/-- The shape of `q`, `k`, `v` and of the context. -/
abbrev Sqkv : Shape := ⟨3, ![16, 2048, 128]⟩
/-- The shape of the attention matrix. -/
abbrev Sattn : Shape := ⟨3, ![16, 2048, 2048]⟩

/-- The scale constant both programs multiply the scores by. -/
abbrev scale : EReal := Ideal.ofBits .f32 0x3DB504F3#32
/-- The value the row maximum is folded from. -/
abbrev ninf : EReal := Ideal.ofBits .f32 0xFF800000#32

/-- The scaled score of query row `i` against key row `j` in batch `b`. -/
def score (q k : Sqkv.Idx → EReal) (b : Fin 16) (i j : Fin 2048) : EReal :=
  (∑ d : Fin 128, q (ix3 b i d) * k (ix3 b j d)) * scale

/-- The largest score of query row `i`. -/
def rowmax (q k : Sqkv.Idx → EReal) (b : Fin 16) (i : Fin 2048) : EReal :=
  (Finset.univ : Finset (Fin 2048)).fold max ninf (fun j => score q k b i j)

/-- The unnormalised softmax weight. -/
def weight (q k : Sqkv.Idx → EReal) (b : Fin 16) (i j : Fin 2048) : EReal :=
  Ideal.exp (score q k b i j - rowmax q k b i)

/-- The sum of a query row's weights. -/
def rowsum (q k : Sqkv.Idx → EReal) (b : Fin 16) (i : Fin 2048) : EReal :=
  ∑ j : Fin 2048, weight q k b i j

/-- The attention matrix at `(b, i, j)`. -/
def attnAt (q k : Sqkv.Idx → EReal) (b : Fin 16) (i j : Fin 2048) : EReal :=
  Ideal.div (weight q k b i j) (rowsum q k b i)

/-- The context at `(b, i, d)`, normalised after the sum over the keys. -/
def ctxAfterAt (q k v : Sqkv.Idx → EReal) (b : Fin 16) (i : Fin 2048) (d : Fin 128) : EReal :=
  Ideal.div (∑ j : Fin 2048, weight q k b i j * v (ix3 b j d)) (rowsum q k b i)

/-- The context at `(b, i, d)`, normalised before the sum over the keys. -/
def ctxBeforeAt (q k v : Sqkv.Idx → EReal) (b : Fin 16) (i : Fin 2048) (d : Fin 128) : EReal :=
  ∑ j : Fin 2048, attnAt q k b i j * v (ix3 b j d)

/-- The attention matrix as an array. -/
def attn (q k : Sqkv.Idx → EReal) : Sattn.Idx → EReal := fun x => attnAt q k (x 0) (x 1) (x 2)
/-- The context as an array, normalised after the sum. -/
def ctxAfter (q k v : Sqkv.Idx → EReal) : Sqkv.Idx → EReal := fun x => ctxAfterAt q k v (x 0) (x 1) (x 2)
/-- The context as an array, normalised before the sum. -/
def ctxBefore (q k v : Sqkv.Idx → EReal) : Sqkv.Idx → EReal := fun x => ctxBeforeAt q k v (x 0) (x 1) (x 2)

/-- With real entries the two arrangements of the context agree at every index. -/
theorem ctxAt_eq (q k v : Sqkv.Idx → EReal) (hq : ∀ x, ∃ r : ℝ, q x = (r : EReal)) (hk : ∀ x, ∃ r : ℝ, k x = (r : EReal))
    (hv : ∀ x, ∃ r : ℝ, v x = (r : EReal)) (b : Fin 16) (i : Fin 2048) (d : Fin 128) :
    ctxAfterAt q k v b i d = ctxBeforeAt q k v b i d := by
  choose Q hQ using hq
  choose K hK using hk
  choose V hV using hv
  obtain ⟨C, hC⟩ := Cert.Consts.ofBits_scale_real
  have hs : ∀ j : Fin 2048, score q k b i j = (((∑ d : Fin 128, Q (ix3 b i d) * K (ix3 b j d)) * C : ℝ) : EReal) := fun j => by
    unfold score scale
    simp only [hQ, hK, hC, ← EReal.coe_mul, Cert.RealLaws.coe_finsum]
  unfold ctxAfterAt ctxBeforeAt attnAt rowsum weight rowmax ninf
  simp only [hs, hV, Cert.Consts.ofBits_ninf]
  exact Cert.RealLaws.softmax_div_comm _ (fun j => V (ix3 b j d)) _ rfl

/-- With real entries the two arrangements of the context are one array. -/
theorem ctx_eq (q k v : Sqkv.Idx → EReal) (hq : ∀ x, ∃ r : ℝ, q x = (r : EReal)) (hk : ∀ x, ∃ r : ℝ, k x = (r : EReal))
    (hv : ∀ x, ∃ r : ℝ, v x = (r : EReal)) : ctxAfter q k v = ctxBefore q k v :=
  funext fun x => ctxAt_eq q k v hq hk hv (x 0) (x 1) (x 2)

end Cert.Attn

end
-- ==== Proof.RefSide.lean ====
/-
  The reference program's two results, read index by index, are the attention matrix and the context normalised before
  the sum over the keys (`Cert.Attn.attn`, `Cert.Attn.ctxBefore`).

  The program computes the scores by a batched contraction over the feature axis and a multiplication by the scale; the
  row maximum by a reduction with `max` from `-∞` over the key axis, followed by a `max` against `-∞` that changes
  nothing; the weights `exp (score − rowmax)`; their sum over the key axis from `0`; the quotient; and the context by a
  second batched contraction, over the key axis, of the attention matrix with `v`. Each stage is read at explicit
  coordinates.
-/
import proofs.«106450_j5557687681458_2_alg».proof.Proof.Gen.ReferenceIdeal.Read
import proofs.«106450_j5557687681458_2_alg».proof.Proof.Attention
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The reference's arrays of shape `[16, 2048, 128]` at the ideal instance. -/
abbrev Arr : Type := Sqkv.Idx → EReal

/-- The scaled scores. -/
theorem scores_at (x0 x1 : Arr) (b : Fin 16) (i j : Fin 2048) :
    val_main_v2 (F := Ideal) x0 x1 (ix3 b i j) = score x0 x1 b i j := by
  rw [val_main_v2_apply, val_main_v0_apply, val_main_v1_apply, val_main_cst_apply]
  unfold score scale
  simp only [Ideal.mulf_def, Ideal.ofBits_def]
  refine congrArg (· * _) (Finset.sum_congr rfl fun d _ => ?_)
  have el : lidx_main_v0 (ix3 b i j) d = ix3 b i d := funext fun a => Fin.ext (by
    match a with | ⟨0, _⟩ => rfl | ⟨1, _⟩ => rfl | ⟨2, _⟩ => rfl)
  have er : ridx_main_v0 (ix3 b i j) d = ix3 b j d := funext fun a => Fin.ext (by
    match a with | ⟨0, _⟩ => rfl | ⟨1, _⟩ => rfl | ⟨2, _⟩ => rfl)
  rw [el, er]

/-- The key axis of the score array reduces away to the `[16, 2048]` array of rows. -/
theorem reduces_keys : S16x2048x2048.Reduces [2] S16x2048 := by decide

/-- The row maximum: the reduction over the key axis is the fold of `max` over the keys, and the later `max` against
    `-∞` returns it. -/
theorem rowmax_at (x0 x1 : Arr) (b : Fin 16) (i : Fin 2048) :
    val_main_v5 (F := Ideal) x0 x1 (ix2 b i) = rowmax x0 x1 b i := by
  rw [val_main_v5_apply, val_main_v4_apply, val_main_cst_1_apply]
  unfold val_main_v3
  rw [Host.reduce_eq_fold_single FloatOps.maximumf _ _ reducesTo_S16x2048x2048_S16x2048_d2 reduces_keys h_S_]
  rw [val_main_cst_0_apply]
  simp only [Ideal.ofBits_def]
  unfold rowmax ninf
  have hf : (val_main_v2 (F := Ideal) x0 x1 ∘ reduces_keys.lift (ix2 b i)) = fun j : Fin 2048 => score x0 x1 b i j := by
    refine funext fun (j : Fin 2048) => ?_
    have e : reduces_keys.lift (ix2 b i) j = ix3 b i j := funext fun a => Fin.ext (by
      match a with | ⟨0, _⟩ => rfl | ⟨1, _⟩ => rfl | ⟨2, _⟩ => rfl)
    show val_main_v2 (F := Ideal) x0 x1 (reduces_keys.lift (ix2 b i) j) = _
    rw [e, scores_at]
  rw [hf]
  show max (Ideal.ofBits .f32 0xFF800000#32) ((Finset.univ : Finset (Fin 2048)).fold max (Ideal.ofBits .f32 0xFF800000#32) fun j => score x0 x1 b i j) = _
  exact max_eq_right ((Finset.le_fold_max _).mpr (Or.inl le_rfl))

/-- The weights. -/
theorem weight_at (x0 x1 : Arr) (b : Fin 16) (i j : Fin 2048) :
    val_main_v9 (F := Ideal) x0 x1 (ix3 b i j) = weight x0 x1 b i j := by
  rw [val_main_v9_apply, val_main_v8_apply, val_main_v7_apply, val_main_v6_apply]
  have e : idx_main_v6 (idx_main_v7 (ix3 b i j)) = ix2 b i := funext fun a => Fin.ext (by
    match a with | ⟨0, _⟩ => rfl | ⟨1, _⟩ => rfl)
  rw [e, rowmax_at, scores_at]
  rfl

/-- The row sums. -/
theorem rowsum_at (x0 x1 : Arr) (b : Fin 16) (i : Fin 2048) :
    val_main_v10 (F := Ideal) x0 x1 (ix2 b i) = rowsum x0 x1 b i := by
  rw [val_main_v10_apply, val_main_cst_2_apply]
  simp only [Ideal.ofBits_def, Ideal.ofBits_zero_f32, zero_add]
  unfold rowsum
  refine Finset.sum_congr rfl fun j _ => ?_
  have e : idx_main_v10 (ix2 b i) j = ix3 b i j := funext fun a => Fin.ext (by
    match a with | ⟨0, _⟩ => rfl | ⟨1, _⟩ => rfl | ⟨2, _⟩ => rfl)
  rw [e, weight_at]

/-- The attention matrix at an index. -/
theorem attn_at (x0 x1 : Arr) (b : Fin 16) (i j : Fin 2048) :
    val_main_v13 (F := Ideal) x0 x1 (ix3 b i j) = attnAt x0 x1 b i j := by
  rw [val_main_v13_apply, val_main_v12_apply, val_main_v11_apply]
  have e : idx_main_v11 (idx_main_v12 (ix3 b i j)) = ix2 b i := funext fun a => Fin.ext (by
    match a with | ⟨0, _⟩ => rfl | ⟨1, _⟩ => rfl)
  rw [e, rowsum_at, weight_at]
  rfl

/-- The context at an index: the contraction of the attention matrix with `v` over the keys. -/
theorem ctx_at (x0 x1 x2 : Arr) (b : Fin 16) (i : Fin 2048) (d : Fin 128) :
    val_main_v14 (F := Ideal) x0 x1 x2 (ix3 b i d) = ctxBeforeAt x0 x1 x2 b i d := by
  rw [val_main_v14_apply]
  unfold ctxBeforeAt
  refine Finset.sum_congr rfl fun j _ => ?_
  have el : lidx_main_v14 (ix3 b i d) j = ix3 b i j := funext fun a => Fin.ext (by
    match a with | ⟨0, _⟩ => rfl | ⟨1, _⟩ => rfl | ⟨2, _⟩ => rfl)
  have er : ridx_main_v14 (ix3 b i d) j = ix3 b j d := funext fun a => Fin.ext (by
    match a with | ⟨0, _⟩ => rfl | ⟨1, _⟩ => rfl | ⟨2, _⟩ => rfl)
  rw [el, er, attn_at]

/-- The reference's second result is the attention matrix. -/
theorem attn_eq (x0 x1 : Arr) : val_main_v13 (F := Ideal) x0 x1 = attn x0 x1 := by
  funext x
  obtain ⟨b, i, j, rfl⟩ : ∃ (b : Fin 16) (i j : Fin 2048), x = ix3 b i j := ⟨x 0, x 1, x 2, eq_ix3 x⟩
  exact attn_at x0 x1 b i j

/-- The reference's first result is the context normalised before the sum. -/
theorem ctx_eq (x0 x1 x2 : Arr) : val_main_v14 (F := Ideal) x0 x1 x2 = ctxBefore x0 x1 x2 := by
  funext x
  obtain ⟨b, i, d, rfl⟩ : ∃ (b : Fin 16) (i : Fin 2048) (d : Fin 128), x = ix3 b i d := ⟨x 0, x 1, x 2, eq_ix3 x⟩
  exact ctx_at x0 x1 x2 b i d

end Cert.ReferenceIdeal.RefValue

end
-- ==== Proof.Payload.lean ====
/-
  The kernel body's four computed values, read index by index, for ANY three loaded blocks `x0 : [1, 512, 128]`,
  `x1, x2 : [1, 2048, 128]` that hold rows of `q`, `k`, `v`: if `x0` holds the 512 query rows `row r` of batch `B` and
  `x1`, `x2` hold all 2048 key and value rows of batch `B`, then

    the weights block     at (r, j)    is  weight q k B (row r) j,
    the row-sum column    at (r, 0)    is  rowsum q k B (row r),
    the attention block   at (0, r, j) is  attnAt q k B (row r) j,
    the context block     at (0, r, d) is  ctxAfterAt q k v B (row r) d   (normalised AFTER the sum over the keys).

  The body multiplies the query block with the TRANSPOSED key block (a contraction over the 128 features), scales,
  takes each row's maximum and the exponentials of the differences, sums them along the row, divides the weights by the
  sum for the attention block, and for the context block contracts the weights with the value block over the 2048 keys and
  divides by the row sum afterwards. Format changes to bf16 are the identity on the extended reals.
-/
import proofs.«106450_j5557687681458_2_alg».proof.Proof.Gen.KernelIdeal.Skeleton
import proofs.«106450_j5557687681458_2_alg».proof.Proof.Attention
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Attn

/-! ## Blocks with a leading unit axis, viewed without it and back -/

/-- A `[1, 512, 128]` block viewed as `[512, 128]`. -/
theorem viewQ_at (x0 : Vec Ideal S1x512x128 .f32) (r : Fin 512) (d : Fin 128) :
    (shapeCast S512x128 x0 shapeCasts_S1x512x128_S512x128 : FVec Ideal S512x128 .f32) (ix2 r d) = x0 (ix3 (0 : Fin 1) r d) :=
  shapeCast_apply x0 _ (ix2 r d) (ix3 (0 : Fin 1) r d) (by
    rw [Shape.rowMajor_val_three, Shape.rowMajor_val_two]
    show ((0 : ℕ) * 512 + r.val) * 128 + d.val = r.val * 128 + d.val
    omega)

/-- A `[1, 2048, 128]` block viewed as `[2048, 128]`. -/
theorem viewKV_at (x1 : Vec Ideal S1x2048x128 .f32) (j : Fin 2048) (d : Fin 128) :
    (shapeCast S2048x128 x1 shapeCasts_S1x2048x128_S2048x128 : FVec Ideal S2048x128 .f32) (ix2 j d) = x1 (ix3 (0 : Fin 1) j d) :=
  shapeCast_apply x1 _ (ix2 j d) (ix3 (0 : Fin 1) j d) (by
    rw [Shape.rowMajor_val_three, Shape.rowMajor_val_two]
    show ((0 : ℕ) * 2048 + j.val) * 128 + d.val = j.val * 128 + d.val
    omega)

/-- A row vector `[512]` made a column `[512, 1]` and broadcast along `n` columns reads the row's entry. -/
theorem column_at {n : Nat} (w : FVec Ideal S512 .f32) (hb : S512x1.Broadcasts (⟨2, ![512, n]⟩ : Shape)) (hn : n ≠ 1) (r : Fin 512) (j : Fin n) :
    (broadcastTo (⟨2, ![512, n]⟩ : Shape) (shapeCast S512x1 w shapeCasts_S512_S512x1) hb : FVec Ideal (⟨2, ![512, n]⟩ : Shape) .f32) (ix2 r j) = w (ix1 r) := by
  refine (broadcastTo_apply _ hb (ix2 r j) (ix2 r (0 : Fin 1)) (fun a => match a with
    | ⟨0, _⟩ => by show r.val = (if (512 : Nat) = 1 then 0 else r.val); rw [if_neg (by decide)]
    | ⟨1, _⟩ => by show 0 = (if (1 : Nat) = 1 then 0 else j.val); rw [if_pos rfl])).trans ?_
  exact shapeCast_apply w _ (ix2 r (0 : Fin 1)) (ix1 r) (by
    rw [Shape.rowMajor_val_one, Shape.rowMajor_val_two]
    show r.val = r.val * 1 + 0
    omega)

/-! ## The scaled scores of the block -/

/-- The scaled score block: the query block times the transposed key block, times the scale. -/
def scoresBlk (x0 : Vec Ideal S1x512x128 .f32) (x1 : Vec Ideal S1x2048x128 .f32) : FVec Ideal S512x2048 .f32 :=
  mulf (matmul dot_S512x128_S128x2048_S512x2048_1_0_0_1_n_n none
      (truncf .bf16 (shapeCast S512x128 x0 shapeCasts_S1x512x128_S512x128) bitsLt_bf16_f32)
      (transpose S128x2048 [1, 0] (truncf .bf16 (shapeCast S2048x128 x1 shapeCasts_S1x2048x128_S2048x128) bitsLt_bf16_f32) transposes_S2048x128_p1_0_S128x2048)
      (constant S512x2048 .f32 0x00000000#32))
    (broadcast S512x2048 (Scalar.ofBits .f32 0x3DB504F3#32))

/-- The first matrix product's operand indices, coordinate by coordinate: the left operand is read at (output row,
    contraction index), the right at (contraction index, output column). -/
theorem qk_lhs0 (i : S512x2048.Idx) (c : dot_S512x128_S128x2048_S512x2048_1_0_0_1_n_n.contr.Idx) :
    (dot_S512x128_S128x2048_S512x2048_1_0_0_1_n_n.lhsIdx i c 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem qk_lhs1 (i : S512x2048.Idx) (c : dot_S512x128_S128x2048_S512x2048_1_0_0_1_n_n.contr.Idx) :
    (dot_S512x128_S128x2048_S512x2048_1_0_0_1_n_n.lhsIdx i c 1).val = (c ⟨0, by decide⟩).val :=
  dot_S512x128_S128x2048_S512x2048_1_0_0_1_n_n.lhsIdx_val_of_single rfl i c
theorem qk_rhs0 (i : S512x2048.Idx) (c : dot_S512x128_S128x2048_S512x2048_1_0_0_1_n_n.contr.Idx) :
    (dot_S512x128_S128x2048_S512x2048_1_0_0_1_n_n.rhsIdx i c 0).val = (c ⟨0, by decide⟩).val :=
  dot_S512x128_S128x2048_S512x2048_1_0_0_1_n_n.rhsIdx_val_of_single rfl i c
theorem qk_rhs1 (i : S512x2048.Idx) (c : dot_S512x128_S128x2048_S512x2048_1_0_0_1_n_n.contr.Idx) :
    (dot_S512x128_S128x2048_S512x2048_1_0_0_1_n_n.rhsIdx i c 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The first matrix product at `(r, j)`: the sum over the features of query row `r` times key row `j`. -/
theorem qk_at (x0 : Vec Ideal S1x512x128 .f32) (x1 : Vec Ideal S1x2048x128 .f32) (r : Fin 512) (j : Fin 2048) :
    (matmul dot_S512x128_S128x2048_S512x2048_1_0_0_1_n_n none
      (truncf .bf16 (shapeCast S512x128 x0 shapeCasts_S1x512x128_S512x128) bitsLt_bf16_f32 : FVec Ideal S512x128 .bf16)
      (transpose S128x2048 [1, 0] (truncf .bf16 (shapeCast S2048x128 x1 shapeCasts_S1x2048x128_S2048x128) bitsLt_bf16_f32 : FVec Ideal S2048x128 .bf16) transposes_S2048x128_p1_0_S128x2048)
      (constant S512x2048 .f32 0x00000000#32) : FVec Ideal S512x2048 .f32) (ix2 r j)
      = ∑ d : Fin 128, x0 (ix3 (0 : Fin 1) r d) * x1 (ix3 (0 : Fin 1) j d) := by
  simp only [matmul]
  rw [Ideal.matmul_constant_zero_apply, ← Equiv.sum_comp (contrEquiv1 dot_S512x128_S128x2048_S512x2048_1_0_0_1_n_n 128 rfl rfl).symm]
  refine Finset.sum_congr rfl fun d _ => ?_
  have hk := contrEquiv1_symm_val dot_S512x128_S128x2048_S512x2048_1_0_0_1_n_n 128 rfl rfl d
  have el : dot_S512x128_S128x2048_S512x2048_1_0_0_1_n_n.lhsIdx (ix2 r j) ((contrEquiv1 dot_S512x128_S128x2048_S512x2048_1_0_0_1_n_n 128 rfl rfl).symm d) = ix2 r d := funext fun a => Fin.ext (by
    match a with
    | ⟨0, _⟩ => exact qk_lhs0 _ _
    | ⟨1, _⟩ => exact (qk_lhs1 _ _).trans hk)
  have er : dot_S512x128_S128x2048_S512x2048_1_0_0_1_n_n.rhsIdx (ix2 r j) ((contrEquiv1 dot_S512x128_S128x2048_S512x2048_1_0_0_1_n_n 128 rfl rfl).symm d) = ix2 d j := funext fun a => Fin.ext (by
    match a with
    | ⟨0, _⟩ => exact (qk_rhs0 _ _).trans hk
    | ⟨1, _⟩ => exact qk_rhs1 _ _)
  rw [el, er]
  have e1 : (truncf .bf16 (shapeCast S512x128 x0 shapeCasts_S1x512x128_S512x128) bitsLt_bf16_f32 : FVec Ideal S512x128 .bf16) (ix2 r d) = x0 (ix3 (0 : Fin 1) r d) :=
    viewQ_at x0 r d
  have e2 : (transpose S128x2048 [1, 0] (truncf .bf16 (shapeCast S2048x128 x1 shapeCasts_S1x2048x128_S2048x128) bitsLt_bf16_f32 : FVec Ideal S2048x128 .bf16) transposes_S2048x128_p1_0_S128x2048 : FVec Ideal S128x2048 .bf16) (ix2 d j) = x1 (ix3 (0 : Fin 1) j d) :=
    (transpose_apply [1, 0] _ transposes_S2048x128_p1_0_S128x2048 (ix2 d j) (ix2 j d) (fun b => match b with
      | ⟨0, _⟩ => rfl
      | ⟨1, _⟩ => rfl)).trans (viewKV_at x1 j d)
  rw [e1, e2]

section Rows

variable (q k v : Sqkv.Idx → EReal) (B : Fin 16) (row : Fin 512 → Fin 2048)
variable (x0 : Vec Ideal S1x512x128 .f32) (x1 x2 : Vec Ideal S1x2048x128 .f32)
variable (h0 : ∀ (r : Fin 512) (d : Fin 128), x0 (ix3 (0 : Fin 1) r d) = q (ix3 B (row r) d))
variable (h1 : ∀ (j : Fin 2048) (d : Fin 128), x1 (ix3 (0 : Fin 1) j d) = k (ix3 B j d))
variable (h2 : ∀ (j : Fin 2048) (d : Fin 128), x2 (ix3 (0 : Fin 1) j d) = v (ix3 B j d))

include h0 h1 in
/-- The scaled score block at `(r, j)` is the score of query row `row r` against key row `j`. -/
theorem scoresBlk_at (r : Fin 512) (j : Fin 2048) : scoresBlk x0 x1 (ix2 r j) = score q k B (row r) j := by
  unfold scoresBlk score scale
  show _ * Ideal.ofBits .f32 0x3DB504F3#32 = _
  refine congrArg (· * _) ?_
  refine (qk_at x0 x1 r j).trans (Finset.sum_congr rfl fun d _ => ?_)
  rw [h0, h1]

/-- The row maxima of a score block. -/
def rowmaxBlk (s : FVec Ideal S512x2048 .f32) : FVec Ideal S512 .f32 :=
  multiReduction .maximumf [1] S512 s 0xFF800000#32 reduces_S512x2048_S512 (.inl rfl) rfl

/-- A row's maximum: the fold of `max` over the row's 2048 entries from `-∞`. -/
theorem rowmaxBlk_at (s : FVec Ideal S512x2048 .f32) (r : Fin 512) :
    rowmaxBlk s (ix1 r) = (Finset.univ : Finset (Fin 2048)).fold max ninf (fun j => s (ix2 r j)) := by
  unfold rowmaxBlk
  refine (Ideal.multiReduction_maximumf_single s 0xFF800000#32 reduces_S512x2048_S512 (.inl rfl) rfl (ix1 r)).trans ?_
  have hf : (s ∘ reduces_S512x2048_S512.lift (ix1 r)) = fun j : Fin 2048 => s (ix2 r j) := by
    refine funext fun (j : Fin 2048) => ?_
    have e : reduces_S512x2048_S512.lift (ix1 r) j = ix2 r j := funext fun a => Fin.ext (by
      match a with | ⟨0, _⟩ => rfl | ⟨1, _⟩ => rfl)
    show s (reduces_S512x2048_S512.lift (ix1 r) j) = _
    rw [e]
  rw [hf]
  rfl

/-- The weights block: the exponentials of the scores less their row's maximum. -/
def weightsBlk (x0 : Vec Ideal S1x512x128 .f32) (x1 : Vec Ideal S1x2048x128 .f32) : FVec Ideal S512x2048 .f32 :=
  exp (subf (scoresBlk x0 x1) (broadcastTo S512x2048 (shapeCast S512x1 (rowmaxBlk (scoresBlk x0 x1)) shapeCasts_S512_S512x1) broadcasts_S512x1_S512x2048))

/-- The body's first computed value is the weights block. -/
theorem pay1_eq : k0_pay1 x0 x1 = weightsBlk x0 x1 := rfl

include h0 h1 in
/-- The weights block at `(r, j)`. -/
theorem weightsBlk_at (r : Fin 512) (j : Fin 2048) : weightsBlk x0 x1 (ix2 r j) = weight q k B (row r) j := by
  unfold weightsBlk weight rowmax
  show Ideal.exp (scoresBlk x0 x1 (ix2 r j) - (broadcastTo S512x2048 (shapeCast S512x1 (rowmaxBlk (scoresBlk x0 x1)) shapeCasts_S512_S512x1) broadcasts_S512x1_S512x2048 : FVec Ideal S512x2048 .f32) (ix2 r j)) = _
  rw [column_at (rowmaxBlk (scoresBlk x0 x1)) broadcasts_S512x1_S512x2048 (by decide) r j, rowmaxBlk_at, scoresBlk_at q k B row x0 x1 h0 h1]
  simp only [scoresBlk_at q k B row x0 x1 h0 h1]

end Rows

/-! ## The row sums, the attention block and the context block -/

/-- The row sums of a weights block. -/
def rowsumBlk (w : FVec Ideal S512x2048 .f32) : FVec Ideal S512 .f32 :=
  multiReduction .add [1] S512 w 0x00000000#32 reduces_S512x2048_S512 (.inl rfl) rfl

/-- A row's sum: the sum of the row's 2048 entries. -/
theorem rowsumBlk_at (w : FVec Ideal S512x2048 .f32) (r : Fin 512) :
    rowsumBlk w (ix1 r) = ∑ j : Fin 2048, w (ix2 r j) := by
  unfold rowsumBlk
  refine (Ideal.multiReduction_add_single w 0x00000000#32 reduces_S512x2048_S512 (.inl rfl) rfl (ix1 r)).trans ?_
  refine Finset.sum_congr rfl fun j _ => congrArg w (funext fun a => Fin.ext (by
    match a with | ⟨0, _⟩ => rfl | ⟨1, _⟩ => rfl))

/-- The second matrix product's operand indices, coordinate by coordinate. -/
theorem pv_lhs0 (i : S512x128.Idx) (c : dot_S512x2048_S2048x128_S512x128_1_0_0_1_n_n.contr.Idx) :
    (dot_S512x2048_S2048x128_S512x128_1_0_0_1_n_n.lhsIdx i c 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem pv_lhs1 (i : S512x128.Idx) (c : dot_S512x2048_S2048x128_S512x128_1_0_0_1_n_n.contr.Idx) :
    (dot_S512x2048_S2048x128_S512x128_1_0_0_1_n_n.lhsIdx i c 1).val = (c ⟨0, by decide⟩).val :=
  dot_S512x2048_S2048x128_S512x128_1_0_0_1_n_n.lhsIdx_val_of_single rfl i c
theorem pv_rhs0 (i : S512x128.Idx) (c : dot_S512x2048_S2048x128_S512x128_1_0_0_1_n_n.contr.Idx) :
    (dot_S512x2048_S2048x128_S512x128_1_0_0_1_n_n.rhsIdx i c 0).val = (c ⟨0, by decide⟩).val :=
  dot_S512x2048_S2048x128_S512x128_1_0_0_1_n_n.rhsIdx_val_of_single rfl i c
theorem pv_rhs1 (i : S512x128.Idx) (c : dot_S512x2048_S2048x128_S512x128_1_0_0_1_n_n.contr.Idx) :
    (dot_S512x2048_S2048x128_S512x128_1_0_0_1_n_n.rhsIdx i c 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The second matrix product at `(r, d)`: the sum over the keys of the weight of key `j` times value row `j`. -/
theorem pv_at (w : FVec Ideal S512x2048 .f32) (x2 : Vec Ideal S1x2048x128 .f32) (r : Fin 512) (d : Fin 128) :
    (matmul dot_S512x2048_S2048x128_S512x128_1_0_0_1_n_n none
      (truncf .bf16 w bitsLt_bf16_f32 : FVec Ideal S512x2048 .bf16)
      (truncf .bf16 (shapeCast S2048x128 x2 shapeCasts_S1x2048x128_S2048x128) bitsLt_bf16_f32 : FVec Ideal S2048x128 .bf16)
      (constant S512x128 .f32 0x00000000#32) : FVec Ideal S512x128 .f32) (ix2 r d)
      = ∑ j : Fin 2048, w (ix2 r j) * x2 (ix3 (0 : Fin 1) j d) := by
  simp only [matmul]
  rw [Ideal.matmul_constant_zero_apply, ← Equiv.sum_comp (contrEquiv1 dot_S512x2048_S2048x128_S512x128_1_0_0_1_n_n 2048 rfl rfl).symm]
  refine Finset.sum_congr rfl fun j _ => ?_
  have hk := contrEquiv1_symm_val dot_S512x2048_S2048x128_S512x128_1_0_0_1_n_n 2048 rfl rfl j
  have el : dot_S512x2048_S2048x128_S512x128_1_0_0_1_n_n.lhsIdx (ix2 r d) ((contrEquiv1 dot_S512x2048_S2048x128_S512x128_1_0_0_1_n_n 2048 rfl rfl).symm j) = ix2 r j := funext fun a => Fin.ext (by
    match a with
    | ⟨0, _⟩ => exact pv_lhs0 _ _
    | ⟨1, _⟩ => exact (pv_lhs1 _ _).trans hk)
  have er : dot_S512x2048_S2048x128_S512x128_1_0_0_1_n_n.rhsIdx (ix2 r d) ((contrEquiv1 dot_S512x2048_S2048x128_S512x128_1_0_0_1_n_n 2048 rfl rfl).symm j) = ix2 j d := funext fun a => Fin.ext (by
    match a with
    | ⟨0, _⟩ => exact (pv_rhs0 _ _).trans hk
    | ⟨1, _⟩ => exact pv_rhs1 _ _)
  rw [el, er]
  have e2 : (truncf .bf16 (shapeCast S2048x128 x2 shapeCasts_S1x2048x128_S2048x128) bitsLt_bf16_f32 : FVec Ideal S2048x128 .bf16) (ix2 j d) = x2 (ix3 (0 : Fin 1) j d) :=
    viewKV_at x2 j d
  rw [e2]
  rfl

section Blocks

variable (q k v : Sqkv.Idx → EReal) (B : Fin 16) (row : Fin 512 → Fin 2048)
variable (x0 : Vec Ideal S1x512x128 .f32) (x1 x2 : Vec Ideal S1x2048x128 .f32)
variable (h0 : ∀ (r : Fin 512) (d : Fin 128), x0 (ix3 (0 : Fin 1) r d) = q (ix3 B (row r) d))
variable (h1 : ∀ (j : Fin 2048) (d : Fin 128), x1 (ix3 (0 : Fin 1) j d) = k (ix3 B j d))
variable (h2 : ∀ (j : Fin 2048) (d : Fin 128), x2 (ix3 (0 : Fin 1) j d) = v (ix3 B j d))

include h0 h1 in
/-- The row sum of the weights block at row `r`. -/
theorem rowsum_weightsBlk_at (r : Fin 512) : rowsumBlk (weightsBlk x0 x1) (ix1 r) = rowsum q k B (row r) := by
  rw [rowsumBlk_at]
  unfold rowsum
  exact Finset.sum_congr rfl fun j _ => weightsBlk_at q k B row x0 x1 h0 h1 r j

/-- The attention block the body stores, as a tree of operations over the weights block. -/
theorem pay3_eq : k0_pay3 x0 x1 = shapeCast S1x512x2048 (divf (weightsBlk x0 x1) (broadcastTo S512x2048 (shapeCast S512x1 (rowsumBlk (weightsBlk x0 x1)) shapeCasts_S512_S512x1) broadcasts_S512x1_S512x2048)) shapeCasts_S512x2048_S1x512x2048 := rfl

include h0 h1 in
/-- The attention block at `(0, r, j)`. -/
theorem attnBlk_at (r : Fin 512) (j : Fin 2048) : k0_pay3 x0 x1 (ix3 (0 : Fin 1) r j) = attnAt q k B (row r) j := by
  rw [pay3_eq]
  refine (shapeCast_apply _ shapeCasts_S512x2048_S1x512x2048 (ix3 (0 : Fin 1) r j) (ix2 r j) (by
    rw [Shape.rowMajor_val_three, Shape.rowMajor_val_two]
    show r.val * 2048 + j.val = ((0 : ℕ) * 512 + r.val) * 2048 + j.val
    omega)).trans ?_
  show Ideal.div (weightsBlk x0 x1 (ix2 r j)) ((broadcastTo S512x2048 (shapeCast S512x1 (rowsumBlk (weightsBlk x0 x1)) shapeCasts_S512_S512x1) broadcasts_S512x1_S512x2048 : FVec Ideal S512x2048 .f32) (ix2 r j)) = _
  rw [column_at (rowsumBlk (weightsBlk x0 x1)) broadcasts_S512x1_S512x2048 (by decide) r j,
    rowsum_weightsBlk_at q k B row x0 x1 h0 h1, weightsBlk_at q k B row x0 x1 h0 h1]
  rfl

/-- The context block the body stores, as a tree of operations over the weights block and the value block. -/
theorem pay4_eq : k0_pay4 x0 x1 x2 = shapeCast S1x512x128 (divf
      (matmul dot_S512x2048_S2048x128_S512x128_1_0_0_1_n_n none (truncf .bf16 (weightsBlk x0 x1) bitsLt_bf16_f32) (truncf .bf16 (shapeCast S2048x128 x2 shapeCasts_S1x2048x128_S2048x128) bitsLt_bf16_f32) (constant S512x128 .f32 0x00000000#32))
      (broadcastTo S512x128 (shapeCast S512x1 (rowsumBlk (weightsBlk x0 x1)) shapeCasts_S512_S512x1) broadcasts_S512x1_S512x128)) shapeCasts_S512x128_S1x512x128 := rfl

include h0 h1 h2 in
/-- The context block at `(0, r, d)`: normalised after the sum over the keys. -/
theorem ctxBlk_at (r : Fin 512) (d : Fin 128) : k0_pay4 x0 x1 x2 (ix3 (0 : Fin 1) r d) = ctxAfterAt q k v B (row r) d := by
  rw [pay4_eq]
  refine (shapeCast_apply _ shapeCasts_S512x128_S1x512x128 (ix3 (0 : Fin 1) r d) (ix2 r d) (by
    rw [Shape.rowMajor_val_three, Shape.rowMajor_val_two]
    show r.val * 128 + d.val = ((0 : ℕ) * 512 + r.val) * 128 + d.val
    omega)).trans ?_
  show Ideal.div ((matmul dot_S512x2048_S2048x128_S512x128_1_0_0_1_n_n none (truncf .bf16 (weightsBlk x0 x1) bitsLt_bf16_f32 : FVec Ideal S512x2048 .bf16) (truncf .bf16 (shapeCast S2048x128 x2 shapeCasts_S1x2048x128_S2048x128) bitsLt_bf16_f32 : FVec Ideal S2048x128 .bf16) (constant S512x128 .f32 0x00000000#32) : FVec Ideal S512x128 .f32) (ix2 r d))
      ((broadcastTo S512x128 (shapeCast S512x1 (rowsumBlk (weightsBlk x0 x1)) shapeCasts_S512_S512x1) broadcasts_S512x1_S512x128 : FVec Ideal S512x128 .f32) (ix2 r d)) = _
  rw [column_at (rowsumBlk (weightsBlk x0 x1)) broadcasts_S512x1_S512x128 (by decide) r d,
    rowsum_weightsBlk_at q k B row x0 x1 h0 h1, pv_at]
  unfold ctxAfterAt
  refine congrArg (Ideal.div · _) (Finset.sum_congr rfl fun j _ => ?_)
  rw [weightsBlk_at q k B row x0 x1 h0 h1, h2]

end Blocks

end Cert.KernelIdeal.Body

end
-- ==== Proof.Blocks.lean ====
/-
  From the blocks the grid points write back to the two whole result arrays.

  The grid has 64 points `(b, s)`, `b < 16` a batch and `s < 4` a slab of 512 query rows. At a point the kernel stages
  rows `512 s … 512 s + 511` of batch `b` of `q` and ALL rows of batch `b` of `k` and `v`, and writes back block
  `(b, s, 0)` of the context (512 × 128) and of the attention matrix (512 × 2048). So what a point writes back is the
  restriction to its block of ONE function of the argument arrays — `Cert.Attn.ctxAfter` for the context,
  `Cert.Attn.attn` for the attention matrix —, every index of either result lies in some point's block (row `i` of
  batch `b` in the block of point `(b, i / 512)`), and hence each result array ends holding that function.
-/
import proofs.«106450_j5557687681458_2_alg».proof.Proof.Gen.KernelIdeal.Value
import proofs.«106450_j5557687681458_2_alg».proof.Proof.Payload
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The index maps, decided over the 64 grid points: the query window and both result windows sit at block
    `(b, s, 0)`, the key and value windows at block `(b, 0, 0)`, with `b < 16` and `s < 4`. -/
theorem idx_facts : ∀ t : Fin cfg0.N,
    win0_3.index t (0 : Fin 3) < 16 ∧ win0_3.index t (1 : Fin 3) < 4 ∧ win0_3.index t (2 : Fin 3) = 0
    ∧ win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_4.index t (0 : Fin 3) = win0_3.index t (0 : Fin 3) ∧ win0_4.index t (1 : Fin 3) = win0_3.index t (1 : Fin 3) ∧ win0_4.index t (2 : Fin 3) = 0 :=
  (by decide +kernel : ∀ t : Fin grid0.N, _)

/-- Every block `(b, s, 0)` is some point's. -/
theorem idx_onto : ∀ (b : Fin 16) (s : Fin 4), ∃ t : Fin cfg0.N, win0_3.index t = ![b.val, s.val, 0] :=
  (by decide +kernel : ∀ (b : Fin 16) (s : Fin 4), ∃ t : Fin grid0.N, win0_3.index t = ![b.val, s.val, 0])

/-- The batch of a point. -/
def batchOf (t : Fin cfg0.N) : Fin 16 := ⟨win0_3.index t (0 : Fin 3), (idx_facts t).1⟩
/-- The array row of a point's block row. -/
def rowOf (t : Fin cfg0.N) (r : Fin 512) : Fin 2048 :=
  ⟨win0_3.index t (1 : Fin 3) * 512 + r.val, by have := (idx_facts t).2.1; have := r.isLt; omega⟩

/-- The query block at a point holds rows `rowOf t r` of batch `batchOf t` of the first argument. -/
theorem qblk_at (c : Dev nD) (t : Fin cfg0.N) (r : Fin 512) (d : Fin 128) :
    (iblk m c 0 t : Vec Ideal S1x512x128 .f32) (ix3 (0 : Fin 1) r d) = (V m c main_arg0 : Sqkv.Idx → EReal) (ix3 (batchOf t) (rowOf t r) d) := by
  obtain ⟨_, _, _, e0, e1, e2, _⟩ := idx_facts t
  show V m c main_arg0 (((cfg0.win 0).blk t).view.emb (ix3 (0 : Fin 1) r d)) = V m c main_arg0 _
  refine congrArg _ (funext fun a => Fin.ext ?_)
  match a with
  | ⟨0, _⟩ => show win0_0.index t (0 : Fin 3) * 1 + 1 * 0 = win0_3.index t (0 : Fin 3); omega
  | ⟨1, _⟩ => show win0_0.index t (1 : Fin 3) * 512 + 1 * r.val = win0_3.index t (1 : Fin 3) * 512 + r.val; omega
  | ⟨2, _⟩ => show win0_0.index t (2 : Fin 3) * 128 + 1 * d.val = d.val; omega

/-- The key block at a point holds all rows of batch `batchOf t` of the second argument. -/
theorem kblk_at (c : Dev nD) (t : Fin cfg0.N) (j : Fin 2048) (d : Fin 128) :
    (iblk m c 1 t : Vec Ideal S1x2048x128 .f32) (ix3 (0 : Fin 1) j d) = (V m c main_arg1 : Sqkv.Idx → EReal) (ix3 (batchOf t) j d) := by
  obtain ⟨_, _, _, _, _, _, e0, e1, e2, _⟩ := idx_facts t
  show V m c main_arg1 (((cfg0.win 1).blk t).view.emb (ix3 (0 : Fin 1) j d)) = V m c main_arg1 _
  refine congrArg _ (funext fun a => Fin.ext ?_)
  match a with
  | ⟨0, _⟩ => show win0_1.index t (0 : Fin 3) * 1 + 1 * 0 = win0_3.index t (0 : Fin 3); omega
  | ⟨1, _⟩ => show win0_1.index t (1 : Fin 3) * 2048 + 1 * j.val = j.val; omega
  | ⟨2, _⟩ => show win0_1.index t (2 : Fin 3) * 128 + 1 * d.val = d.val; omega

/-- The value block at a point holds all rows of batch `batchOf t` of the third argument. -/
theorem vblk_at (c : Dev nD) (t : Fin cfg0.N) (j : Fin 2048) (d : Fin 128) :
    (iblk m c 2 t : Vec Ideal S1x2048x128 .f32) (ix3 (0 : Fin 1) j d) = (V m c main_arg2 : Sqkv.Idx → EReal) (ix3 (batchOf t) j d) := by
  obtain ⟨_, _, _, _, _, _, _, _, _, e0, e1, e2, _⟩ := idx_facts t
  show V m c main_arg2 (((cfg0.win 2).blk t).view.emb (ix3 (0 : Fin 1) j d)) = V m c main_arg2 _
  refine congrArg _ (funext fun a => Fin.ext ?_)
  match a with
  | ⟨0, _⟩ => show win0_2.index t (0 : Fin 3) * 1 + 1 * 0 = win0_3.index t (0 : Fin 3); omega
  | ⟨1, _⟩ => show win0_2.index t (1 : Fin 3) * 2048 + 1 * j.val = j.val; omega
  | ⟨2, _⟩ => show win0_2.index t (2 : Fin 3) * 128 + 1 * d.val = d.val; omega

/-! ## The context (output window 3) -/

/-- What point `t` writes back to the context is block `t` of `ctxAfter` of the argument arrays. -/
theorem flushed3_eq (c : Dev nD) (t : Fin cfg0.N) :
    (dats m 0 c).flushed 3 t = ((cfg0.win 3).blk t).view.read (Elt Ideal)
      (ctxAfter (V m c main_arg0) (V m c main_arg1) (V m c main_arg2)) := by
  rw [Value.flushed3]
  unfold out0_3
  rw [View.canon_unit_zero hz]
  simp only [View.ld_unit_zero (S := S1x512x128) hz, View.ld_unit_zero (S := S1x2048x128) hz]
  refine funext fun (y : S1x512x128.Idx) => ?_
  obtain ⟨z, r, d, rfl⟩ : ∃ (z : Fin 1) (r : Fin 512) (d : Fin 128), y = ix3 z r d := ⟨y 0, y 1, y 2, eq_ix3 y⟩
  obtain rfl : z = 0 := Subsingleton.elim _ _
  show k0_pay4 (iblk m c 0 t) (iblk m c 1 t) (iblk m c 2 t) (ix3 (0 : Fin 1) r d)
    = ctxAfter (V m c main_arg0) (V m c main_arg1) (V m c main_arg2) (((cfg0.win 3).blk t).view.emb (ix3 (0 : Fin 1) r d))
  have hemb : ((cfg0.win 3).blk t).view.emb (ix3 (0 : Fin 1) r d) = (ix3 (batchOf t) (rowOf t r) d : Sqkv.Idx) := by
    obtain ⟨_, _, e2, _⟩ := idx_facts t
    refine funext fun a => Fin.ext ?_
    match a with
    | ⟨0, _⟩ => show win0_3.index t (0 : Fin 3) * 1 + 1 * 0 = win0_3.index t (0 : Fin 3); omega
    | ⟨1, _⟩ => show win0_3.index t (1 : Fin 3) * 512 + 1 * r.val = win0_3.index t (1 : Fin 3) * 512 + r.val; omega
    | ⟨2, _⟩ => show win0_3.index t (2 : Fin 3) * 128 + 1 * d.val = d.val; omega
  rw [hemb]
  exact Cert.KernelIdeal.Body.ctxBlk_at (V m c main_arg0) (V m c main_arg1) (V m c main_arg2) (batchOf t) (rowOf t)
    (iblk m c 0 t) (iblk m c 1 t) (iblk m c 2 t) (qblk_at m c t) (kblk_at m c t) (vblk_at m c t) r d

/-- An index of the context is in point `t`'s block iff each coordinate is in the block's range. -/
theorem mem_blk3 (t : Fin cfg0.N) (i : S16x2048x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v0_0).slice (win0_3.rect t)).set ↔ _
  rw [View.set_slice_whole, Rect.mem_set_unit]
  exact Iff.rfl

/-- Every index of the context is in some point's block. -/
theorem cover3 (i : S16x2048x128.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- The context array after the run. -/
theorem final3 (c : Dev nD) : (dats m 0 c).arrAt 3 cfg0.N
    = ctxAfter (m ((c : Thread nD τ).loc main_arg0)) (m ((c : Thread nD τ).loc main_arg1)) (m ((c : Thread nD τ).loc main_arg2)) :=
  (dats m 0 c).arrAt_eq_of_cover 3 _ (fun t _ => flushed3_eq m c t) cover3

/-! ## The attention matrix (output window 4) -/

/-- What point `t` writes back to the attention matrix is block `t` of `attn` of the argument arrays. -/
theorem flushed4_eq (c : Dev nD) (t : Fin cfg0.N) :
    (dats m 0 c).flushed 4 t = ((cfg0.win 4).blk t).view.read (Elt Ideal)
      (attn (V m c main_arg0) (V m c main_arg1)) := by
  rw [Value.flushed4]
  unfold out0_4
  rw [View.canon_unit_zero hz]
  simp only [View.ld_unit_zero (S := S1x512x128) hz, View.ld_unit_zero (S := S1x2048x128) hz]
  refine funext fun (y : S1x512x2048.Idx) => ?_
  obtain ⟨z, r, j, rfl⟩ : ∃ (z : Fin 1) (r : Fin 512) (j : Fin 2048), y = ix3 z r j := ⟨y 0, y 1, y 2, eq_ix3 y⟩
  obtain rfl : z = 0 := Subsingleton.elim _ _
  show k0_pay3 (iblk m c 0 t) (iblk m c 1 t) (ix3 (0 : Fin 1) r j)
    = attn (V m c main_arg0) (V m c main_arg1) (((cfg0.win 4).blk t).view.emb (ix3 (0 : Fin 1) r j))
  have hemb : ((cfg0.win 4).blk t).view.emb (ix3 (0 : Fin 1) r j) = (ix3 (batchOf t) (rowOf t r) j : Sattn.Idx) := by
    obtain ⟨_, _, _, _, _, _, _, _, _, _, _, _, e0, e1, e2⟩ := idx_facts t
    refine funext fun a => Fin.ext ?_
    match a with
    | ⟨0, _⟩ => show win0_4.index t (0 : Fin 3) * 1 + 1 * 0 = win0_3.index t (0 : Fin 3); omega
    | ⟨1, _⟩ => show win0_4.index t (1 : Fin 3) * 512 + 1 * r.val = win0_3.index t (1 : Fin 3) * 512 + r.val; omega
    | ⟨2, _⟩ => show win0_4.index t (2 : Fin 3) * 2048 + 1 * j.val = j.val; omega
  rw [hemb]
  exact Cert.KernelIdeal.Body.attnBlk_at (V m c main_arg0) (V m c main_arg1) (batchOf t) (rowOf t)
    (iblk m c 0 t) (iblk m c 1 t) (qblk_at m c t) (kblk_at m c t) r j

/-- An index of the attention matrix is in point `t`'s block iff each coordinate is in the block's range. -/
theorem mem_blk4 (t : Fin cfg0.N) (i : S16x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v0_1).slice (win0_4.rect t)).set ↔ _
  rw [View.set_slice_whole, Rect.mem_set_unit]
  exact Iff.rfl

/-- Every index of the attention matrix is in some point's block. -/
theorem cover4 (i : S16x2048x2048.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  obtain ⟨_, _, _, _, _, _, _, _, _, _, _, _, e0, e1, e2⟩ := idx_facts t
  have q0 : win0_3.index t (0 : Fin 3) = (i 0).val := congrFun ht 0
  have q1 : win0_3.index t (1 : Fin 3) = (i 1).val / 512 := congrFun ht 1
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The attention matrix after the run. -/
theorem final4 (c : Dev nD) : (dats m 0 c).arrAt 4 cfg0.N
    = attn (m ((c : Thread nD τ).loc main_arg0)) (m ((c : Thread nD τ).loc main_arg1)) :=
  (dats m 0 c).arrAt_eq_of_cover 4 _ (fun t _ => flushed4_eq m c t) cover4

/-! ## The run, read -/

/-- The kernel's run: the context ends at `ctxAfter` and the attention matrix at `attn` of the argument arrays, the
    arguments unchanged. -/
theorem run : θ_run defs (onTc (τ := τ) (main (F := Ideal))) ⟨m, fun _ => 0, ρ⟩ fun r => ∀ c : Dev nD,
      r.2.mem ((c : Thread nD τ).loc main_v0_0) = ctxAfter (m ((c : Thread nD τ).loc main_arg0)) (m ((c : Thread nD τ).loc main_arg1)) (m ((c : Thread nD τ).loc main_arg2))
      ∧ r.2.mem ((c : Thread nD τ).loc main_v0_1) = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.Whole

end
-- ==== Proof.Finite.lean ====
/-
  The precondition read back: every entry of the three argument arrays is a real number.

  The precondition is the conjunction, over the three arrays, of "every entry's absolute value is below `+∞`", each an
  `and`-reduction over all axes of an elementwise comparison. A conjunction of one-bit words that is `1` has both
  conjuncts `1`; an `and`-reduction that is `1` met `1` at every index; and on the extended reals
  `max x (−x) < ⊤` excludes `x = ⊤` and `x = ⊥`, which leaves the reals.
-/
import proofs.«106450_j5557687681458_2_alg».proof.Pre_finite_inputs
import proofs.«106450_j5557687681458_2_alg».proof.Proof.Consts
import Idealize.ShloMosaic.Lib.ReduceAll
import Idealize.ShloMosaic.Lib.Pipeline.Value
import Idealize.ShloMosaic.Lib.ValueIdx
import Idealize.ShloMosaic.PureOps.Ideal.Laws

noncomputable section

namespace Cert.Finite

open Idealize.ShloMosaic Idealize.ShloMosaic.ValueIdx Cert.Pre_finite_inputs

/-- An extended real whose absolute value compares below `⊤` is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

instance : Subsingleton S_.Idx := ⟨fun a b => funext fun d => d.elim0⟩

/-- One array's conjunct: if the `and`-reduction of "absolute value below `+∞`" over the whole array is `1`, every entry
    is real. -/
theorem real_of_all [Cert.Pre_finite_inputs.Facts] (a : FVec Ideal S16x2048x128 .f32)
    (h : Host.reduce IntOp.andi (cmpf .olt (Host.absf a) (broadcastInDim S16x2048x128 ![] Facts.bcast_S_S16x2048x128 (constant (F := Ideal) S_ .f32 0x7F800000#32))) (constantI S_ 1 1#1) Facts.reducesTo_S16x2048x128_S_d0_1_2 Facts.h_S_ ix0 = 1#1)
    (x : S16x2048x128.Idx) : ∃ r : ℝ, a x = (r : EReal) := by
  have hx := Host.reduce_andi_all _ _ _ _ ix0 h x
  refine real_of_abs_lt_top (a x) ?_
  have hb : (broadcastInDim S16x2048x128 ![] Facts.bcast_S_S16x2048x128 (constant (F := Ideal) S_ .f32 0x7F800000#32) : FVec Ideal S16x2048x128 .f32) x = (⊤ : EReal) :=
    (broadcastInDim_apply _ Facts.bcast_S_S16x2048x128 _ x ix0 (fun b => b.elim0)).trans Cert.Consts.ofBits_pinf
  have hx' : Ideal.cmp .olt (max (a x) (-(a x))) ((broadcastInDim S16x2048x128 ![] Facts.bcast_S_S16x2048x128 (constant (F := Ideal) S_ .f32 0x7F800000#32) : FVec Ideal S16x2048x128 .f32) x) = 1#1 := hx
  rw [hb] at hx'
  exact hx'

/-- The precondition gives: every entry of each of the three arrays is real. -/
theorem real_of_pre [Cert.Pre_finite_inputs.Facts] (a0 a1 a2 : FVec Ideal S16x2048x128 .f32)
    (h : Cert.Pre_finite_inputs.fn (F := Ideal) a0 a1 a2 = fun _ => 1#1) :
    (∀ x, ∃ r : ℝ, a0 x = (r : EReal)) ∧ (∀ x, ∃ r : ℝ, a1 x = (r : EReal)) ∧ (∀ x, ∃ r : ℝ, a2 x = (r : EReal)) := by
  have h' := congrFun h ix0
  dsimp only [Cert.Pre_finite_inputs.fn] at h'
  obtain ⟨h01, h2⟩ := IntOp.andi_eq_one.1 h'
  obtain ⟨h0, h1⟩ := IntOp.andi_eq_one.1 h01
  exact ⟨real_of_all a0 h0, real_of_all a1 h1, real_of_all a2 h2⟩

end Cert.Finite

end
-- ==== Proof.lean ====
/-
  Scaled dot-product attention, `B = 16` batches of `S = 2048` rows of `D = 128` features: a kernel that computes, per
  slab of 512 query rows, the scores against all keys, the row-wise softmax weights and their sums, and returns the
  attention matrix `weights / rowsum` and the context `(weights · v) / rowsum`, against a reference that returns
  `softmax (q kᵀ · c)` and `softmax (q kᵀ · c) · v`.

  On the extended reals, with exact operations:
  * the attention matrices are the same expression on both sides — the contraction over the features, the same scale
    word, the row maximum folded from `-∞`, `exp` of the difference, the row sum, the quotient (Proof/RefSide.lean for
    the reference, Proof/Payload.lean and Proof/Blocks.lean for the kernel, both against Proof/Attention.lean);
  * the contexts differ in WHEN the division by the row sum happens — the kernel divides the contracted sum, the
    reference contracts the divided weights — and agree because, the inputs being finite, every weight is a positive
    real and the row sum a positive real, so the division distributes over the sum (Proof/LibSoftmaxReal.lean,
    `Cert.Attn.ctx_eq`; the precondition read back in Proof/Finite.lean).
  Each program's frame is its generated run; the idealisation rewrote nothing, so `preserves` is trivial.
-/
import proofs.«106450_j5557687681458_2_alg».proof.Defs
import proofs.«106450_j5557687681458_2_alg».proof.Proof.Gen.Kernel
import proofs.«106450_j5557687681458_2_alg».proof.Proof.Gen.Kernel.Skeleton
import proofs.«106450_j5557687681458_2_alg».proof.Proof.Gen.Kernel.Launch
import proofs.«106450_j5557687681458_2_alg».proof.Proof.Gen.Kernel.Points
import proofs.«106450_j5557687681458_2_alg».proof.Proof.Gen.Kernel.Frame
import proofs.«106450_j5557687681458_2_alg».proof.Proof.Gen.KernelIdeal
import proofs.«106450_j5557687681458_2_alg».proof.Proof.Gen.KernelIdeal.Skeleton
import proofs.«106450_j5557687681458_2_alg».proof.Proof.Gen.KernelIdeal.Launch
import proofs.«106450_j5557687681458_2_alg».proof.Proof.Gen.KernelIdeal.Points
import proofs.«106450_j5557687681458_2_alg».proof.Proof.Gen.KernelIdeal.Frame
import proofs.«106450_j5557687681458_2_alg».proof.Proof.Gen.ReferenceIdeal
import proofs.«106450_j5557687681458_2_alg».proof.Proof.Gen.Pre_finite_inputs
import proofs.«106450_j5557687681458_2_alg».proof.Proof.Gen.KernelIdeal.Value
import proofs.«106450_j5557687681458_2_alg».proof.Proof.Gen.ReferenceIdeal.Run
import proofs.«106450_j5557687681458_2_alg».proof.Proof.Gen.ReferenceIdeal.Read
import proofs.«106450_j5557687681458_2_alg».proof.Proof.Attention
import proofs.«106450_j5557687681458_2_alg».proof.Proof.RefSide
import proofs.«106450_j5557687681458_2_alg».proof.Proof.Blocks
import proofs.«106450_j5557687681458_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealised kernel runs and leaves its arguments unchanged. -/
theorem frame_kernelIdeal : Cert.frame_KernelIdeal := fun m ρ _ => Cert.KernelIdeal.Gen.frame m ρ

/-- The idealised reference runs and leaves its arguments unchanged: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From finite arguments the kernel and the reference end with the same context and the same attention matrix: the
    attention matrices are one expression, and the contexts' two placements of the division by the row sum agree because
    every entry is real. -/
theorem algebraic : Cert.algebraic_KernelIdeal_ReferenceIdeal := by
  intro m ρ m' ρ' hpre hagree
  refine ⟨fun c => Cert.Attn.ctxAfter (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => Cert.Attn.attn (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun r h c => ?_) (Cert.ReferenceIdeal.Value.run (F := Ideal) m' ρ')
  obtain ⟨hq, hk, hv⟩ := Cert.Finite.real_of_pre _ _ _ (hpre c)
  have e14 : r.2.mem ((c.tc : Thread Cert.ReferenceIdeal.nD Cert.ReferenceIdeal.τ).loc Cert.ReferenceIdeal.main_v14)
      = Cert.ReferenceIdeal.Read.val_main_v14 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) := (h c).1
  have e13 : r.2.mem ((c.tc : Thread Cert.ReferenceIdeal.nD Cert.ReferenceIdeal.τ).loc Cert.ReferenceIdeal.main_v13)
      = Cert.ReferenceIdeal.Read.val_main_v13 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) := (h c).2.1
  refine ⟨e14.trans ?_, e13.trans ?_, (h c).2.2⟩
  · rw [(hagree c).1, (hagree c).2.1, (hagree c).2.2]
    exact (Cert.ReferenceIdeal.RefValue.ctx_eq _ _ _).trans (Cert.Attn.ctx_eq _ _ _ hq hk hv).symm
  · rw [(hagree c).1, (hagree c).2.1]
    exact Cert.ReferenceIdeal.RefValue.attn_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
